-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S256x8x512 : Shape := ⟨3, ![256, 8, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x8x512 : S_.BroadcastsInDim S256x8x512 (![] : Fin 0 → Fin S256x8x512.rank)
  reducesTo_S256x8x512_S_d0_1_2 : S256x8x512.ReducesTo [0, 1, 2] S_

variable [Facts]

def fn {F : FTy → Type} [FloatOps F] (main_arg0 : FVec F S8192x512 .f32) (main_arg1 : FVec F S8192x512 .f32) (main_arg2 : FVec F S256x8x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S256x8x512 .f32 := Host.absf main_arg2
  let main_cst_2 : FVec F S_ .f32 := constant S_ .f32 0x7F800000#32
  let main_v10 : FVec F S256x8x512 .f32 := broadcastInDim S256x8x512 ![] bcast_S_S256x8x512 main_cst_2
  let main_v11 : IVec S256x8x512 1 := cmpf .olt main_v9 main_v10
  let main_c_3 : IVec S_ 1 := constantI S_ 1 1#1
  let main_v12 : IVec S_ 1 := (fun x v => Host.reduce IntOp.andi x v reducesTo_S256x8x512_S_d0_1_2 h_S_) main_v11 main_c_3
  let main_v13 : IVec S_ 1 := andi main_v8 main_v12
  main_v13
-- ==== Kernel.lean ====
abbrev S8192x512 : Shape := ⟨2, ![8192, 512]⟩
abbrev S256x8x512 : Shape := ⟨3, ![256, 8, 512]⟩
abbrev S8x256x512 : Shape := ⟨3, ![8, 256, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S8192x256 : Shape := ⟨2, ![8192, 256]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 13
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S256x8x512, .f32⟩
  | .hbm, ⟨3, _⟩ => ⟨S8x256x512, .f32⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S1x2048, .f32⟩
  | .hbm, ⟨11, _⟩ => ⟨S8192x256, .f32⟩
  | .hbm, ⟨12, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S2048x512, .bf16⟩
  | .local _ .vmem, ⟨5, _⟩ => ⟨S1x2048, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x8x512_S8x256x512_1_0_2 : S256x8x512.Transposes [1, 0, 2] S8x256x512
  shapeCasts_S8x256x512_S2048x512 : S8x256x512.ShapeCasts S2048x512
  bitsLt_bf16_f32 : FTy.bits .bf16 < FTy.bits .f32
  reducesTo_S2048x512_S2048_d1 : S2048x512.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  slices_S1024x2048_o0_0_S1024x256 : S1024x2048.Slices ![0, 0] S1024x256
  slices_S1024x2048_o0_256_S1024x256 : S1024x2048.Slices ![0, 256] S1024x256
  slices_S1024x2048_o0_512_S1024x256 : S1024x2048.Slices ![0, 512] S1024x256
  slices_S1024x2048_o0_768_S1024x256 : S1024x2048.Slices ![0, 768] S1024x256
  slices_S1024x2048_o0_1024_S1024x256 : S1024x2048.Slices ![0, 1024] S1024x256
  slices_S1024x2048_o0_1280_S1024x256 : S1024x2048.Slices ![0, 1280] S1024x256
  slices_S1024x2048_o0_1536_S1024x256 : S1024x2048.Slices ![0, 1536] S1024x256
  slices_S1024x2048_o0_1792_S1024x256 : S1024x2048.Slices ![0, 1792] S1024x256
  inb_S1024x256_S1024x256_0_0 : ∀ a, (![0, 0] : Fin 2 → Nat) a + S1024x256.size a ≤ S1024x256.size a
  h_S1024x256 : 0 < S1024x256.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S256x8x512 : Shape := ⟨3, ![256, 8, 512]⟩
abbrev S2048x512 : Shape := ⟨2, ![2048, 512]⟩
abbrev S_ : Shape := ⟨0, ![]⟩
abbrev S8192 : Shape := ⟨1, ![8192]⟩
abbrev S8192x1 : Shape := ⟨2, ![8192, 1]⟩
abbrev S2048 : Shape := ⟨1, ![2048]⟩
abbrev S512x2048 : Shape := ⟨2, ![512, 2048]⟩
abbrev S8192x2048 : Shape := ⟨2, ![8192, 2048]⟩
abbrev S1x2048 : Shape := ⟨2, ![1, 2048]⟩
abbrev S8192x256x8 : Shape := ⟨3, ![8192, 256, 8]⟩
abbrev S8192x256 : Shape := ⟨2, ![8192, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S256x8x512, .f32⟩
  | .hbm, ⟨3, _⟩ => ⟨S2048x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S2048x512, .f32⟩
  | .hbm, ⟨9, _⟩ => ⟨S_, .f32⟩
  | .hbm, ⟨10, _⟩ => ⟨S2048, .f32⟩
  | .hbm, ⟨11, _⟩ => ⟨S512x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x256x8, .f32⟩
  | .hbm, ⟨27, _⟩ => ⟨S_, .f32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S2048x512, .f32⟩
  | .hbm, ⟨40, _⟩ => ⟨S8192x512, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S2048x512, .f32⟩
  | .hbm, ⟨45, _⟩ => ⟨S_, .f32⟩
  | .hbm, ⟨46, _⟩ => ⟨S2048, .f32⟩
  | .hbm, ⟨47, _⟩ => ⟨S512x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x256x8, .f32⟩
  | .hbm, ⟨63, _⟩ => ⟨S_, .f32⟩
  | .hbm, ⟨64, _⟩ => ⟨S8192x256, .f32⟩
  | .hbm, ⟨65, _⟩ => ⟨S_, .f32⟩
  | .hbm, ⟨66, _⟩ => ⟨S8192x256, .f32⟩
  | .hbm, ⟨67, _⟩ => ⟨S_, .f32⟩
  | .hbm, ⟨68, _⟩ => ⟨S8192x256, .f32⟩
  | .hbm, ⟨69, _⟩ => ⟨S8192x256, .f32⟩
  | .hbm, ⟨70, _⟩ => ⟨S_, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_cst_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  shapeCasts_S256x8x512_S2048x512 : S256x8x512.ShapeCasts S2048x512
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S2048x512_S2048_d1 : S2048x512.ReducesTo [1] S2048
  transposes_S2048x512_S512x2048_1_0 : S2048x512.Transposes [1, 0] S512x2048
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S8192x256x8 : S8192x2048.ShapeCasts S8192x256x8
  reducesTo_S8192x256x8_S8192x256_d2 : S8192x256x8.ReducesTo [2] S8192x256
  bcast_S_S8192x256 : S_.BroadcastsInDim S8192x256 (![] : Fin 0 → Fin S8192x256.rank)
  dot_S8192x512_S512x2048_S8192x2048_1_0_0_1_n_n_wf : DotDims.WF S8192x512 S512x2048 S8192x2048 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.RbfSpec.lean ====
/-
  The function both programs compute, stated once over the argument arrays, index by index, on the extended reals.

  For a batch array `X` (8192 rows of 512 features) and the centers `C` (256 groups of 8 centers, each of 512 features):
  the squared distance of row `b` to center `(k, c)` in its expanded form `|x|² − 2·⟨x, c⟩ + |c|²`, the Gaussian weight
  `exp(−d²/2)` of that distance, and for each group `k` the ratio `S / (S + 8 − 8·M)` of the sum `S` and the maximum
  `M` of the group's eight weights. The two laws that join the kernel's and the reference's readings of this function
  are here too: halving written as a quotient by two or as a product with one half, and a fold of `max` from `−∞`
  over eight values written as a chain of seven maxima.
-/
import Idealize.ShloMosaic.PureOps.Ideal
import Idealize.ShloMosaic.PureOps.Ideal.Laws
import Idealize.ShloMosaic.Lib.ValueIdx

noncomputable section

namespace Cert.RbfSpec

open Idealize.ShloMosaic Idealize.ShloMosaic.ValueIdx

/-- The squared norm of row `b` of the batch. -/
def rowSq (X : (⟨2, ![8192, 512]⟩ : Shape).Idx → EReal) (b : Fin 8192) : EReal :=
  ∑ d : Fin 512, X (ix2 b d) * X (ix2 b d)

/-- The squared norm of center `(k, c)`. -/
def centerSq (C : (⟨3, ![256, 8, 512]⟩ : Shape).Idx → EReal) (k : Fin 256) (c : Fin 8) : EReal :=
  ∑ d : Fin 512, C (ix3 k c d) * C (ix3 k c d)

/-- The inner product of row `b` with center `(k, c)`. -/
def inner (X : (⟨2, ![8192, 512]⟩ : Shape).Idx → EReal) (C : (⟨3, ![256, 8, 512]⟩ : Shape).Idx → EReal)
    (b : Fin 8192) (k : Fin 256) (c : Fin 8) : EReal :=
  ∑ d : Fin 512, X (ix2 b d) * C (ix3 k c d)

/-- The squared distance of row `b` to center `(k, c)`, expanded: `|x|² − 2·⟨x, c⟩ + |c|²`. -/
def dist2 (X : (⟨2, ![8192, 512]⟩ : Shape).Idx → EReal) (C : (⟨3, ![256, 8, 512]⟩ : Shape).Idx → EReal)
    (b : Fin 8192) (k : Fin 256) (c : Fin 8) : EReal :=
  (rowSq X b - Ideal.ofBits .f32 0x40000000#32 * inner X C b k c) + centerSq C k c

/-- The Gaussian weight of that distance: `exp((0 − d²)·½)`. -/
def gauss (X : (⟨2, ![8192, 512]⟩ : Shape).Idx → EReal) (C : (⟨3, ![256, 8, 512]⟩ : Shape).Idx → EReal)
    (b : Fin 8192) (k : Fin 256) (c : Fin 8) : EReal :=
  Ideal.exp ((Ideal.ofBits .f32 0x00000000#32 - dist2 X C b k c) * Ideal.ofBits .f32 0x3F000000#32)

/-- Eight values added left to right. -/
def sum8 (g : Fin 8 → EReal) : EReal := g 0 + g 1 + g 2 + g 3 + g 4 + g 5 + g 6 + g 7

/-- The maximum of eight values, taken left to right. -/
def max8 (g : Fin 8 → EReal) : EReal :=
  max (max (max (max (max (max (max (g 0) (g 1)) (g 2)) (g 3)) (g 4)) (g 5)) (g 6)) (g 7)

/-- The ratio `S / (S + 8 − M·8)` of a group's sum `S` and maximum `M`. -/
def ratio (S M : EReal) : EReal :=
  Ideal.div S ((S + Ideal.ofBits .f32 0x41000000#32) - M * Ideal.ofBits .f32 0x41000000#32)

/-- THE RESULT: at `(b, k)`, the ratio of the sum and the maximum of group `k`'s eight weights for row `b`. -/
def prob (X : (⟨2, ![8192, 512]⟩ : Shape).Idx → EReal) (C : (⟨3, ![256, 8, 512]⟩ : Shape).Idx → EReal) :
    (⟨2, ![8192, 256]⟩ : Shape).Idx → EReal :=
  fun i => ratio (sum8 fun c => gauss X C (i 0) (i 1) c) (max8 fun c => gauss X C (i 0) (i 1) c)

/-! ## The two laws -/

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_negInf : Ideal.ofBits .f32 0xFF800000#32 = (⊥ : EReal) := by
  simp [Ideal.ofBits, Ideal.ieee]

/-- The negation divided by two is zero minus the value, times one half — on every extended real: the quotient by a nonzero
    real is the product with its reciprocal whatever the dividend. -/
theorem neg_div_two (y : EReal) :
    Ideal.div (-y) (Ideal.ofBits .f32 0x40000000#32)
      = (Ideal.ofBits .f32 0x00000000#32 - y) * Ideal.ofBits .f32 0x3F000000#32 := by
  rw [ofBits_two, ofBits_half, ofBits_zero, Ideal.div_coe (by norm_num : (2 : ℝ) ≠ 0), sub_eq_add_neg, zero_add]

/-- Zero plus the sum over the eight coordinates is the eight values added left to right. -/
theorem zero_add_sum8 (g : Fin 8 → EReal) :
    Ideal.ofBits .f32 0x00000000#32 + ∑ c : Fin 8, g c = sum8 g := by
  rw [ofBits_zero, zero_add, Fin.sum_univ_eight]; rfl

/-- The fold of `max` from `−∞` over the eight coordinates is the chain of seven maxima: `max` is commutative and
    associative, and `−∞` is its neutral element. -/
theorem fold_max8 (g : Fin 8 → EReal) :
    (Finset.univ : Finset (Fin 8)).fold max (Ideal.ofBits .f32 0xFF800000#32) g = max8 g := by
  rw [ofBits_negInf]
  simp only [Fin.univ_succ, Finset.fold_cons, Finset.fold_map, Finset.univ_unique, Finset.fold_singleton]
  show max (g 0) (max (g 1) (max (g 2) (max (g 3) (max (g 4) (max (g 5) (max (g 6) (max (g 7) ⊥))))))) = _
  rw [max_bot_right]
  unfold max8
  ac_rfl

end Cert.RbfSpec

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KernelBlock.lean ====
/-
  One grid point's arithmetic, read at an index.

  A point holds 1024 rows `x` of the batch, the 2048 centers `cb` (row `256·c + k` is center `(k, c)`) and their
  squared norms `c2` as one row. The body forms the 1024 × 2048 matrix of Gaussian weights
  `exp((0 − ((|x_p|² − 2·⟨x_p, cb_q⟩) + c2_q))·½)` — the row sums of squares by a lane sum, the inner products by a matrix
  product into a zero accumulator, the two norms broadcast along the other axis — and then, for each of the 256 lanes
  `k`, adds and maximises the eight entries `256·c + k` of a row and returns `S / (S + 8 − M·8)`.
-/
import proofs.«124140_j85272280695307_2_alg».proof.Proof.Gen.KernelIdeal.Skeleton
import proofs.«124140_j85272280695307_2_alg».proof.Proof.RbfSpec
import proofs.«124140_j85272280695307_2_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.RbfSpec

/-! ## The Gaussian matrix of a block -/

/-- The lane sum of the squares of a block's rows, at row `p`: the sum over the 512 features. -/
theorem rowSq_apply (x : FVec Ideal S1024x512 .f32) (p : Fin 1024) :
    multiReduction (F := Ideal) .add [1] S1024 (mulf x x) 0x00000000#32 reduces_S1024x512_S1024 (.inl rfl) rfl (ix1 p)
      = ∑ d : Fin 512, x (ix2 p d) * x (ix2 p d) := by
  refine (Ideal.multiReduction_add_single (mulf x x) 0x00000000#32 reduces_S1024x512_S1024 (.inl rfl) rfl (ix1 p)).trans ?_
  refine Finset.sum_congr rfl fun d _ => ?_
  have e : reduces_S1024x512_S1024.lift (ix1 p) d = ix2 p (⟨d.val, d.isLt⟩ : Fin 512) :=
    funext fun a => Fin.ext (by match a with | ⟨0, _⟩ => rfl | ⟨1, _⟩ => rfl)
  show x (reduces_S1024x512_S1024.lift (ix1 p) d) * x (reduces_S1024x512_S1024.lift (ix1 p) d) = _
  rw [e]
  rfl

theorem lhs_dot_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl

theorem lhs_dot_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q

theorem rhs_dot_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl

theorem rhs_dot_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The matrix product of the block's rows with the centers, into a zero accumulator, at `(p, q)`: the inner product of
    row `p` with center row `q` (both operands contracted over their feature axis). -/
theorem dot_apply (x : FVec Ideal S1024x512 .bf16) (cb : FVec Ideal S2048x512 .bf16) (p : Fin 1024) (q : Fin 2048) :
    matmul (F := Ideal) dot_S1024x512_S2048x512_S1024x2048_1_1_0_0_n_n none x cb (constant S1024x2048 .f32 0x00000000#32) (ix2 p q)
      = ∑ d : Fin 512, x (ix2 p d) * cb (ix2 q d) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 p q) ((ValueIdx.contrEquiv1 dot_S1024x512_S2048x512_S1024x2048_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S2048x512_S1024x2048_1_1_0_0_n_n.rhsIdx (ix2 p q) ((ValueIdx.contrEquiv1 dot_S1024x512_S2048x512_S1024x2048_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]

/-- THE GAUSSIAN MATRIX of a block at `(p, q)`: the weight of the expanded squared distance of row `p` to center row `q`. -/
theorem gaussMatrix_apply (cb : FVec Ideal S2048x512 .bf16) (c2 : FVec Ideal S1x2048 .f32) (x : FVec Ideal S1024x512 .f32)
    (p : Fin 1024) (q : Fin 2048) :
    k0_pay16 cb c2 x (ix2 p q)
      = Ideal.exp ((Ideal.ofBits .f32 0x00000000#32
          - (((∑ d : Fin 512, x (ix2 p d) * x (ix2 p d))
              - Ideal.ofBits .f32 0x40000000#32 * (∑ d : Fin 512, x (ix2 p d) * cb (ix2 q d)))
            + c2 (ix2 (0 : Fin 1) q))) * Ideal.ofBits .f32 0x3F000000#32) := by
  have h1 : broadcastTo S1024x2048 (shapeCast S1024x1 (multiReduction (F := Ideal) .add [1] S1024 (mulf x x) 0x00000000#32 reduces_S1024x512_S1024 (.inl rfl) rfl) shapeCasts_S1024_S1024x1) broadcasts_S1024x1_S1024x2048 (ix2 p q)
      = ∑ d : Fin 512, x (ix2 p d) * x (ix2 p d) :=
    (Cert.ColumnLayout.broadcastTo_a1_ab_apply _ _ p q).trans
      ((Cert.ColumnLayout.shapeCast_a_a1_apply _ _ p (0 : Fin 1)).trans (rowSq_apply x p))
  have h2 : matmul (F := Ideal) dot_S1024x512_S2048x512_S1024x2048_1_1_0_0_n_n none (truncf .bf16 x bitsLt_bf16_f32) cb (constant S1024x2048 .f32 0x00000000#32) (ix2 p q)
      = ∑ d : Fin 512, x (ix2 p d) * cb (ix2 q d) :=
    dot_apply (truncf .bf16 x bitsLt_bf16_f32) cb p q
  have h3 : broadcastTo S1024x2048 c2 broadcasts_S1x2048_S1024x2048 (ix2 p q) = c2 (ix2 (0 : Fin 1) q) :=
    broadcastTo_1b_ab_apply c2 broadcasts_S1x2048_S1024x2048 p q
  exact congrArg (fun z : EReal => Ideal.exp ((Ideal.ofBits .f32 0x00000000#32 - z) * Ideal.ofBits .f32 0x3F000000#32))
    (congrArg₂ (fun a b : EReal => a + b) (congrArg₂ (fun a b : EReal => a - Ideal.ofBits .f32 0x40000000#32 * b) h1 h2) h3)

/-! ## From the Gaussian matrix to the group ratios -/

/-- Lane `k` of class `c`: column `256·c + k` of the Gaussian matrix. -/
abbrev lane (c : Fin 8) (k : Fin 256) : Fin 2048 := ⟨c.val * 256 + k.val, by have := c.isLt; have := k.isLt; omega⟩

/-- The block's result from its Gaussian matrix `E`: the eight 256-wide column slices added and maximised left to right,
    then `S / (S + 8 − M·8)` lane by lane. -/
def groupOut (E : FVec Ideal S1024x2048 .f32) : FVec Ideal S1024x256 .f32 :=
  have g0 : FVec Ideal S1024x256 .f32 := extractStridedSlice S1024x256 ![0, 0] E slices_S1024x2048_o0_0_S1024x256
  have g1 : FVec Ideal S1024x256 .f32 := extractStridedSlice S1024x256 ![0, 256] E slices_S1024x2048_o0_256_S1024x256
  have g2 : FVec Ideal S1024x256 .f32 := extractStridedSlice S1024x256 ![0, 512] E slices_S1024x2048_o0_512_S1024x256
  have g3 : FVec Ideal S1024x256 .f32 := extractStridedSlice S1024x256 ![0, 768] E slices_S1024x2048_o0_768_S1024x256
  have g4 : FVec Ideal S1024x256 .f32 := extractStridedSlice S1024x256 ![0, 1024] E slices_S1024x2048_o0_1024_S1024x256
  have g5 : FVec Ideal S1024x256 .f32 := extractStridedSlice S1024x256 ![0, 1280] E slices_S1024x2048_o0_1280_S1024x256
  have g6 : FVec Ideal S1024x256 .f32 := extractStridedSlice S1024x256 ![0, 1536] E slices_S1024x2048_o0_1536_S1024x256
  have g7 : FVec Ideal S1024x256 .f32 := extractStridedSlice S1024x256 ![0, 1792] E slices_S1024x2048_o0_1792_S1024x256
  have S : FVec Ideal S1024x256 .f32 := addf (addf (addf (addf (addf (addf (addf g0 g1) g2) g3) g4) g5) g6) g7
  have M : FVec Ideal S1024x256 .f32 := maximumf (maximumf (maximumf (maximumf (maximumf (maximumf (maximumf g0 g1) g2) g3) g4) g5) g6) g7
  divf S (subf (addf S (broadcast S1024x256 (Scalar.ofBits .f32 0x41000000#32))) (mulf M (broadcast S1024x256 (Scalar.ofBits .f32 0x41000000#32))))

/-- The group ratios at `(p, k)`: the ratio of the sum and the maximum of the eight entries `256·c + k` of row `p`. -/
theorem groupOut_apply (E : FVec Ideal S1024x2048 .f32) (p : Fin 1024) (k : Fin 256) :
    groupOut E (ix2 p k) = ratio (sum8 fun c => E (ix2 p (lane c k))) (max8 fun c => E (ix2 p (lane c k))) := by
  have s0 : extractStridedSlice S1024x256 ![0, 0] E slices_S1024x2048_o0_0_S1024x256 (ix2 p k) = E (ix2 p (lane 0 k)) :=
    slice2_axis1_apply 0 E slices_S1024x2048_o0_0_S1024x256 p k (lane 0 k) (by show 0 * 256 + k.val = 0 + k.val; omega)
  have s1 : extractStridedSlice S1024x256 ![0, 256] E slices_S1024x2048_o0_256_S1024x256 (ix2 p k) = E (ix2 p (lane 1 k)) :=
    slice2_axis1_apply 256 E slices_S1024x2048_o0_256_S1024x256 p k (lane 1 k) (by show 1 * 256 + k.val = 256 + k.val; omega)
  have s2 : extractStridedSlice S1024x256 ![0, 512] E slices_S1024x2048_o0_512_S1024x256 (ix2 p k) = E (ix2 p (lane 2 k)) :=
    slice2_axis1_apply 512 E slices_S1024x2048_o0_512_S1024x256 p k (lane 2 k) (by show 2 * 256 + k.val = 512 + k.val; omega)
  have s3 : extractStridedSlice S1024x256 ![0, 768] E slices_S1024x2048_o0_768_S1024x256 (ix2 p k) = E (ix2 p (lane 3 k)) :=
    slice2_axis1_apply 768 E slices_S1024x2048_o0_768_S1024x256 p k (lane 3 k) (by show 3 * 256 + k.val = 768 + k.val; omega)
  have s4 : extractStridedSlice S1024x256 ![0, 1024] E slices_S1024x2048_o0_1024_S1024x256 (ix2 p k) = E (ix2 p (lane 4 k)) :=
    slice2_axis1_apply 1024 E slices_S1024x2048_o0_1024_S1024x256 p k (lane 4 k) (by show 4 * 256 + k.val = 1024 + k.val; omega)
  have s5 : extractStridedSlice S1024x256 ![0, 1280] E slices_S1024x2048_o0_1280_S1024x256 (ix2 p k) = E (ix2 p (lane 5 k)) :=
    slice2_axis1_apply 1280 E slices_S1024x2048_o0_1280_S1024x256 p k (lane 5 k) (by show 5 * 256 + k.val = 1280 + k.val; omega)
  have s6 : extractStridedSlice S1024x256 ![0, 1536] E slices_S1024x2048_o0_1536_S1024x256 (ix2 p k) = E (ix2 p (lane 6 k)) :=
    slice2_axis1_apply 1536 E slices_S1024x2048_o0_1536_S1024x256 p k (lane 6 k) (by show 6 * 256 + k.val = 1536 + k.val; omega)
  have s7 : extractStridedSlice S1024x256 ![0, 1792] E slices_S1024x2048_o0_1792_S1024x256 (ix2 p k) = E (ix2 p (lane 7 k)) :=
    slice2_axis1_apply 1792 E slices_S1024x2048_o0_1792_S1024x256 p k (lane 7 k) (by show 7 * 256 + k.val = 1792 + k.val; omega)
  unfold groupOut
  simp only [divf_apply, subf_apply, addf_apply, mulf_apply, maximumf_apply, broadcast_apply]
  rw [s0, s1, s2, s3, s4, s5, s6, s7]
  rfl

/-- The first store's payload is the group ratios of the first input's Gaussian matrix. -/
theorem pay_first_eq (cb : Vec Ideal S2048x512 .bf16) (c2 : Vec Ideal S1x2048 .f32) (x : Vec Ideal S1024x512 .f32) :
    k0_pay15 (k0_pay12 cb c2 x) (k0_pay13 cb c2 x) (k0_pay14 cb c2 x) (Scalar.ofBits .f32 0x41000000#32)
      = groupOut (k0_pay16 cb c2 x) := by
  have e2 : k0_pay2 cb = cb := shapeCast_self cb shapeCasts_S2048x512_S2048x512
  have e3 : k0_pay3 c2 = c2 := shapeCast_self c2 shapeCasts_S1x2048_S1x2048
  have e4 : k0_pay4 cb c2 x = k0_pay16 (k0_pay2 cb) (k0_pay3 c2) x := rfl
  rw [e2, e3] at e4
  rw [← e4]
  rfl

/-- The second store's payload is the group ratios of the second input's Gaussian matrix. -/
theorem pay_second_eq (cb : Vec Ideal S2048x512 .bf16) (c2 : Vec Ideal S1x2048 .f32) (x : Vec Ideal S1024x512 .f32) :
    k0_pay1 (k0_pay24 (k0_pay2 cb) (k0_pay3 c2) x) (k0_pay25 (k0_pay2 cb) (k0_pay3 c2) x) (k0_pay26 (k0_pay2 cb) (k0_pay3 c2) x) (k0_pay27 (F := Ideal))
      = groupOut (k0_pay16 cb c2 x) := by
  have e2 : k0_pay2 cb = cb := shapeCast_self cb shapeCasts_S2048x512_S2048x512
  have e3 : k0_pay3 c2 = c2 := shapeCast_self c2 shapeCasts_S1x2048_S1x2048
  rw [e2, e3]
  rfl

end Cert.KernelIdeal.Block

end
-- ==== Proof.KernelPoint.lean ====
/-
  One grid point's result against the specification, over plain variables.

  If a block's rows `x` are rows of the batch `X` (row `p` of the block is row `r` of the batch), the block's center rows
  `256·c + k` are the centers `(k, c)` of `C`, and the block's norm row holds their squared norms, then the block's
  result at `(p, k)` is the specification's value at `(r, k)`: each of the eight Gaussian weights of lane `k` is the
  weight of row `r` and center `(k, c)`.
-/
import proofs.«124140_j85272280695307_2_alg».proof.Proof.KernelBlock

noncomputable section

namespace Cert.KernelIdeal.Block

open Cert.KernelIdeal Cert.KernelIdeal.Gen Idealize.ShloMosaic Idealize.ShloMosaic.ValueIdx Cert.RbfSpec

theorem point_eq (cb : FVec Ideal S2048x512 .bf16) (c2 : FVec Ideal S1x2048 .f32) (x : FVec Ideal S1024x512 .f32)
    (X : FVec Ideal S8192x512 .f32) (C : FVec Ideal S256x8x512 .f32) (r : Fin 8192) (p : Fin 1024) (k : Fin 256)
    (hx : ∀ d : Fin 512, x (ix2 p d) = X (ix2 r d))
    (hcb : ∀ (c : Fin 8) (d : Fin 512), cb (ix2 (lane c k) d) = C (ix3 k c d))
    (hc2 : ∀ c : Fin 8, c2 (ix2 (0 : Fin 1) (lane c k)) = centerSq C k c) :
    groupOut (k0_pay16 cb c2 x) (ix2 p k) = prob X C (ix2 r k) := by
  have hg : ∀ c : Fin 8, k0_pay16 cb c2 x (ix2 p (lane c k)) = gauss X C r k c := fun c => by
    rw [gaussMatrix_apply, hc2 c]
    unfold gauss dist2 rowSq Cert.RbfSpec.inner
    simp only [hx, hcb c]
  rw [groupOut_apply]
  simp only [hg]
  rfl

end Cert.KernelIdeal.Block

end
-- ==== Proof.KernelHost.lean ====
/-
  The two arrays the host writes before the region, read at an index.

  The centers `C` of shape [256, 8, 512] are transposed to [8, 256, 512] and flattened to 2048 rows, so row `256·c + k`
  is center `(k, c)`; the change of float format is the identity on extended reals. Their squared norms are the row sums
  of squares from zero, laid as one row of 2048: entry `256·c + k` is zero plus the sum of the squares of center `(k, c)`.
-/
import proofs.«124140_j85272280695307_2_alg».proof.Proof.Gen.KernelIdeal.Frame
import proofs.«124140_j85272280695307_2_alg».proof.Proof.KernelBlock
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo Cert.RbfSpec Cert.KernelIdeal.Block

/-- The centers transposed and flattened: 2048 rows of 512 features. -/
def flatCenters (C : FVec Ideal S256x8x512 .f32) : FVec Ideal S2048x512 .f32 :=
  shapeCast S2048x512 (transpose S8x256x512 [1, 0, 2] C transposes_S256x8x512_S8x256x512_1_0_2) shapeCasts_S8x256x512_S2048x512

/-- Row `256·c + k` of the flattened centers is center `(k, c)`. -/
theorem flatCenters_apply (C : FVec Ideal S256x8x512 .f32) (c : Fin 8) (k : Fin 256) (d : Fin 512) :
    flatCenters C (ix2 (lane c k) d) = C (ix3 k c d) := by
  unfold flatCenters
  refine (shapeCast_apply _ shapeCasts_S8x256x512_S2048x512 (ix2 (lane c k) d) (ix3 c k d) (by
    rewrite [Shape.rowMajor_val_three, Shape.rowMajor_val_two]
    show (c.val * 256 + k.val) * 512 + d.val = (c.val * 256 + k.val) * 512 + d.val
    rfl)).trans ?_
  exact transpose_apply [1, 0, 2] C transposes_S256x8x512_S8x256x512_1_0_2 (ix3 c k d) (ix3 k c d) (fun b => match b with
    | ⟨0, _⟩ => rfl
    | ⟨1, _⟩ => rfl
    | ⟨2, _⟩ => rfl)

/-- The centers' squared norms as the host computes them: row sums of squares from zero, as a column, then as a row. -/
def centerNormsRow (C : FVec Ideal S256x8x512 .f32) : FVec Ideal S1x2048 .f32 :=
  transpose S1x2048 [1, 0]
    (broadcastInDim S2048x1 ![0] bcast_S2048_S2048x1_0
      (Host.reduceAdd (F := Ideal) (mulf (flatCenters C) (flatCenters C)) (constant (F := Ideal) S_ .f32 0x00000000#32) reducesTo_S2048x512_S2048_d1 h_S_))
    transposes_S2048x1_S1x2048_1_0

/-- Entry `256·c + k` of that row is the sum of the squares of center `(k, c)`. -/
theorem centerNormsRow_apply (C : FVec Ideal S256x8x512 .f32) (c : Fin 8) (k : Fin 256) :
    centerNormsRow C (ix2 (0 : Fin 1) (lane c k)) = centerSq C k c := by
  unfold centerNormsRow
  refine (transpose_ix2_apply _ transposes_S2048x1_S1x2048_1_0 (0 : Fin 1) (lane c k)).trans ?_
  refine (broadcastInDim_apply _ bcast_S2048_S2048x1_0 _ (ix2 (lane c k) (0 : Fin 1)) (ix1 (lane c k)) (fun a => match a with
    | ⟨0, _⟩ => by show (lane c k).val = if (2048 : Nat) = 1 then 0 else (lane c k).val; rw [if_neg (by decide)])).trans ?_
  simp only [Host.reduceAdd, Ideal.hostReduceAdd_def]
  rw [Ideal.hostReduceAdd_single reducesTo_S2048x512_S2048_d1 (by decide)]
  show Ideal.ofBits .f32 0x00000000#32 + _ = _
  rw [Ideal.ofBits_zero_f32, zero_add]
  unfold centerSq
  refine Finset.sum_congr rfl fun d _ => ?_
  have e : (by decide : S2048x512.Reduces [1] S2048).lift (ix1 (lane c k)) d = ix2 (lane c k) (⟨d.val, d.isLt⟩ : Fin 512) :=
    funext fun a => Fin.ext (by match a with | ⟨0, _⟩ => rfl | ⟨1, _⟩ => rfl)
  show flatCenters C _ * flatCenters C _ = _
  rw [e, flatCenters_apply]
  rfl

variable (m : (ℓ : Loc nD τ sig) → Buf (Elt Ideal) ℓ)

/-- What window 2 stages: the flattened centers (in the narrower float format, the same extended reals). -/
theorem V_centers (c : Dev nD) :
    (V m c main_v2 : S2048x512.Idx → EReal) = truncf (F := Ideal) .bf16 (flatCenters (m ((c : Thread nD τ).loc main_arg2))) bitsLt_bf16_f32 := by
  dsimp only [Gen.V, Gen.hostOps0]; after_results; rfl

/-- What window 3 stages: the row of the centers' squared norms. -/
theorem V_centerNorms (c : Dev nD) :
    (V m c main_v6 : S1x2048.Idx → EReal) = centerNormsRow (m ((c : Thread nD τ).loc main_arg2)) := by
  dsimp only [Gen.V, Gen.hostOps0]; after_results; rfl

end Cert.KernelIdeal.HostSide

end
-- ==== Proof.KernelValue.lean ====
/-
  From grid points to whole arrays.

  Point `t` of the eight holds rows `1024·t … 1024·t + 1023` of each batch array, the whole of the flattened centers
  and of their norm row, and writes the same rows of each result. So what point `t` writes back is block `t` of the
  specification applied to the whole argument arrays; the eight blocks tile the 8192 rows, and each result array ends
  holding the specification's function of the arguments.
-/
import proofs.«124140_j85272280695307_2_alg».proof.Proof.Gen.KernelIdeal.Value
import proofs.«124140_j85272280695307_2_alg».proof.Proof.KernelPoint
import proofs.«124140_j85272280695307_2_alg».proof.Proof.KernelHost
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.RbfSpec Cert.KernelIdeal.Block Cert.KernelIdeal.HostSide

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the batch windows and the result windows sit at block row `t`, the centers and
    their norms at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 8 := Nat.lt_of_lt_of_eq t.isLt N_0

/-- Row `p` of point `t`'s block is row `1024·t + p` of the array. -/
abbrev row (t : Fin cfg0.N) (p : Fin 1024) : Fin 8192 := ⟨t.val * 1024 + p.val, by have := t_lt t; have := p.isLt; omega⟩

/-- Point `t`'s centers block is the flattened centers: row `256·c + k` is center `(k, c)`. -/
theorem centers_block (c : Dev nD) (t : Fin cfg0.N) (cc : Fin 8) (k : Fin 256) (d : Fin 512) :
    iblk m c 2 t (ix2 (lane cc k) d) = m ((c : Thread nD τ).loc main_arg2) (ix3 k cc d) := by
  obtain ⟨-, -, -, -, e4, e5, -, -, -, -, -, -⟩ := idx_facts t
  show V m c main_v2 (((cfg0.win 2).blk t).view.emb (ix2 (lane cc k) d)) = _
  have he : ((cfg0.win 2).blk t).view.emb (ix2 (lane cc k) d) = ix2 (lane cc k) d := by
    funext a; apply Fin.ext
    match a with
    | ⟨0, _⟩ => show win0_2.index t (0 : Fin 2) * 2048 + 1 * (lane cc k).val = (lane cc k).val; omega
    | ⟨1, _⟩ => show win0_2.index t (1 : Fin 2) * 512 + 1 * d.val = d.val; omega
  rw [he]
  exact (congrFun (V_centers m c) _).trans (flatCenters_apply _ cc k d)

/-- Point `t`'s norm row holds the centers' squared norms. -/
theorem norms_block (c : Dev nD) (t : Fin cfg0.N) (cc : Fin 8) (k : Fin 256) :
    iblk m c 3 t (ix2 (0 : Fin 1) (lane cc k)) = centerSq (m ((c : Thread nD τ).loc main_arg2)) k cc := by
  obtain ⟨-, -, -, -, -, -, e6, e7, -, -, -, -⟩ := idx_facts t
  show V m c main_v6 (((cfg0.win 3).blk t).view.emb (ix2 (0 : Fin 1) (lane cc k))) = _
  have he : ((cfg0.win 3).blk t).view.emb (ix2 (0 : Fin 1) (lane cc k)) = ix2 (0 : Fin 1) (lane cc k) := by
    funext a; apply Fin.ext
    match a with
    | ⟨0, _⟩ => show win0_3.index t (0 : Fin 2) * 1 + 1 * 0 = 0; omega
    | ⟨1, _⟩ => show win0_3.index t (1 : Fin 2) * 2048 + 1 * (lane cc k).val = (lane cc k).val; omega
  rw [he]
  exact (congrFun (V_centerNorms m c) _).trans (centerNormsRow_apply _ cc k)

/-- Point `t`'s block of the first batch array: its row `p` is row `1024·t + p`. -/
theorem batch0_block (c : Dev nD) (t : Fin cfg0.N) (p : Fin 1024) (d : Fin 512) :
    iblk m c 0 t (ix2 p d) = m ((c : Thread nD τ).loc main_arg0) (ix2 (row t p) d) := by
  obtain ⟨e0, e1, -, -, -, -, -, -, -, -, -, -⟩ := idx_facts t
  show V m c main_arg0 (((cfg0.win 0).blk t).view.emb (ix2 p d)) = _
  rw [V_main_arg0]
  refine congrArg _ ?_
  funext a; apply Fin.ext
  match a with
  | ⟨0, _⟩ => show win0_0.index t (0 : Fin 2) * 1024 + 1 * p.val = t.val * 1024 + p.val; omega
  | ⟨1, _⟩ => show win0_0.index t (1 : Fin 2) * 512 + 1 * d.val = d.val; omega

/-- Point `t`'s block of the second batch array: its row `p` is row `1024·t + p`. -/
theorem batch1_block (c : Dev nD) (t : Fin cfg0.N) (p : Fin 1024) (d : Fin 512) :
    iblk m c 1 t (ix2 p d) = m ((c : Thread nD τ).loc main_arg1) (ix2 (row t p) d) := by
  obtain ⟨-, -, e2, e3, -, -, -, -, -, -, -, -⟩ := idx_facts t
  show V m c main_arg1 (((cfg0.win 1).blk t).view.emb (ix2 p d)) = _
  rw [V_main_arg1]
  refine congrArg _ ?_
  funext a; apply Fin.ext
  match a with
  | ⟨0, _⟩ => show win0_1.index t (0 : Fin 2) * 1024 + 1 * p.val = t.val * 1024 + p.val; omega
  | ⟨1, _⟩ => show win0_1.index t (1 : Fin 2) * 512 + 1 * d.val = d.val; omega

/-- WHAT POINT `t` WRITES BACK to the first result is block `t` of the specification of the first batch array. -/
theorem flushed_first (c : Dev nD) (t : Fin cfg0.N) :
    (dats m 0 c).flushed 4 t = ((cfg0.win 4).blk t).view.read (Elt Ideal)
      (prob (m ((c : Thread nD τ).loc main_arg0)) (m ((c : Thread nD τ).loc main_arg2))) := by
  rw [Value.flushed4]
  unfold out0_4
  rw [View.canon_unit_zero hz]
  simp only [View.ld_unit_zero (S := S2048x512) hz, View.ld_unit_zero (S := S1x2048) hz, View.ld_unit_zero (S := S1024x512) hz]
  obtain ⟨-, -, -, -, -, -, -, -, e8, e9, -, -⟩ := idx_facts t
  funext j
  obtain ⟨p, k, rfl⟩ : ∃ (p : Fin 1024) (k : Fin 256), j = ix2 p k := ⟨j 0, j 1, eq_ix2 j⟩
  have he : ((cfg0.win 4).blk t).view.emb (ix2 p k) = ix2 (row t p) k := by
    funext a; apply Fin.ext
    match a with
    | ⟨0, _⟩ => show win0_4.index t (0 : Fin 2) * 1024 + 1 * p.val = t.val * 1024 + p.val; omega
    | ⟨1, _⟩ => show win0_4.index t (1 : Fin 2) * 256 + 1 * k.val = k.val; omega
  show k0_pay15 (k0_pay12 (iblk m c 2 t) (iblk m c 3 t) (iblk m c 0 t)) (k0_pay13 (iblk m c 2 t) (iblk m c 3 t) (iblk m c 0 t)) (k0_pay14 (iblk m c 2 t) (iblk m c 3 t) (iblk m c 0 t)) (Scalar.ofBits .f32 0x41000000#32) (ix2 p k)
    = prob (m ((c : Thread nD τ).loc main_arg0)) (m ((c : Thread nD τ).loc main_arg2)) (((cfg0.win 4).blk t).view.emb (ix2 p k))
  rw [he]
  exact (congrFun (pay_first_eq _ _ _) _).trans
    (point_eq _ _ _ _ _ (row t p) p k (fun d => batch0_block m c t p d) (fun cc d => centers_block m c t cc k d) (fun cc => norms_block m c t cc k))

/-- WHAT POINT `t` WRITES BACK to the second result is block `t` of the specification of the second batch array. -/
theorem flushed_second (c : Dev nD) (t : Fin cfg0.N) :
    (dats m 0 c).flushed 5 t = ((cfg0.win 5).blk t).view.read (Elt Ideal)
      (prob (m ((c : Thread nD τ).loc main_arg1)) (m ((c : Thread nD τ).loc main_arg2))) := by
  rw [Value.flushed5]
  unfold out0_5
  rw [View.canon_unit_zero hz]
  simp only [View.ld_unit_zero (S := S2048x512) hz, View.ld_unit_zero (S := S1x2048) hz, View.ld_unit_zero (S := S1024x512) hz]
  obtain ⟨-, -, -, -, -, -, -, -, -, -, e10, e11⟩ := idx_facts t
  funext j
  obtain ⟨p, k, rfl⟩ : ∃ (p : Fin 1024) (k : Fin 256), j = ix2 p k := ⟨j 0, j 1, eq_ix2 j⟩
  have he : ((cfg0.win 5).blk t).view.emb (ix2 p k) = ix2 (row t p) k := by
    funext a; apply Fin.ext
    match a with
    | ⟨0, _⟩ => show win0_5.index t (0 : Fin 2) * 1024 + 1 * p.val = t.val * 1024 + p.val; omega
    | ⟨1, _⟩ => show win0_5.index t (1 : Fin 2) * 256 + 1 * k.val = k.val; omega
  show k0_pay1 (k0_pay24 (k0_pay2 (iblk m c 2 t)) (k0_pay3 (iblk m c 3 t)) (iblk m c 1 t)) (k0_pay25 (k0_pay2 (iblk m c 2 t)) (k0_pay3 (iblk m c 3 t)) (iblk m c 1 t)) (k0_pay26 (k0_pay2 (iblk m c 2 t)) (k0_pay3 (iblk m c 3 t)) (iblk m c 1 t)) (k0_pay27 (F := Ideal)) (ix2 p k)
    = prob (m ((c : Thread nD τ).loc main_arg1)) (m ((c : Thread nD τ).loc main_arg2)) (((cfg0.win 5).blk t).view.emb (ix2 p k))
  rw [he]
  exact (congrFun (pay_second_eq _ _ _) _).trans
    (point_eq _ _ _ _ _ (row t p) p k (fun d => batch1_block m c t p d) (fun cc d => centers_block m c t cc k d) (fun cc => norms_block m c t cc k))

/-- An index of a result array is in point `t`'s block of window 4 iff each coordinate is in the block's range. -/
theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v7_0).slice (win0_4.rect t)).set ↔ _
  rw [View.set_slice_whole, Rect.mem_set_unit]
  exact Iff.rfl

theorem mem_blk5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v7_1).slice (win0_5.rect t)).set ↔ _
  rw [View.set_slice_whole, Rect.mem_set_unit]
  exact Iff.rfl

/-- The point whose block holds row `r`: `r / 1024`. -/
abbrev pointOf (i : S8192x256.Idx) : Fin cfg0.N := ⟨(i 0).val / 1024, by
  have h0 : (i 0).val < 8192 := (i 0).isLt
  rw [show cfg0.N = grid0.N from rfl, N_0]; omega⟩

/-- The eight blocks cover the first result array. -/
theorem cover4 (i : S8192x256.Idx) : ∃ t : Fin cfg0.N, (cfg0.win 4).flush t = true ∧ i ∈ ((cfg0.win 4).blk t).view.set := by
  have h0 : (i 0).val < 8192 := (i 0).isLt
  have h1 : (i 1).val < 256 := (i 1).isLt
  refine ⟨pointOf i, flush0_4 _, ?_⟩
  obtain ⟨-, -, -, -, -, -, -, -, e8, e9, -, -⟩ := idx_facts (pointOf i)
  have hv : (pointOf i).val = (i 0).val / 1024 := rfl
  rw [mem_blk4]
  intro a
  match a with
  | ⟨0, _⟩ => show win0_4.index (pointOf i) (0 : Fin 2) * 1024 ≤ (i 0).val ∧ (i 0).val < win0_4.index (pointOf i) (0 : Fin 2) * 1024 + 1024; omega
  | ⟨1, _⟩ => show win0_4.index (pointOf i) (1 : Fin 2) * 256 ≤ (i 1).val ∧ (i 1).val < win0_4.index (pointOf i) (1 : Fin 2) * 256 + 256; omega

/-- The eight blocks cover the second result array. -/
theorem cover5 (i : S8192x256.Idx) : ∃ t : Fin cfg0.N, (cfg0.win 5).flush t = true ∧ i ∈ ((cfg0.win 5).blk t).view.set := by
  have h0 : (i 0).val < 8192 := (i 0).isLt
  have h1 : (i 1).val < 256 := (i 1).isLt
  refine ⟨pointOf i, flush0_5 _, ?_⟩
  obtain ⟨-, -, -, -, -, -, -, -, -, -, e10, e11⟩ := idx_facts (pointOf i)
  have hv : (pointOf i).val = (i 0).val / 1024 := rfl
  rw [mem_blk5]
  intro a
  match a with
  | ⟨0, _⟩ => show win0_5.index (pointOf i) (0 : Fin 2) * 1024 ≤ (i 0).val ∧ (i 0).val < win0_5.index (pointOf i) (0 : Fin 2) * 1024 + 1024; omega
  | ⟨1, _⟩ => show win0_5.index (pointOf i) (1 : Fin 2) * 256 ≤ (i 1).val ∧ (i 1).val < win0_5.index (pointOf i) (1 : Fin 2) * 256 + 256; omega

/-- THE FIRST RESULT ARRAY after the run is the specification of the first batch array and the centers. -/
theorem final_first (c : Dev nD) : (dats m 0 c).arrAt 4 cfg0.N = prob (m ((c : Thread nD τ).loc main_arg0)) (m ((c : Thread nD τ).loc main_arg2)) :=
  (dats m 0 c).arrAt_eq_of_cover 4 _ (fun t _ => flushed_first m c t) cover4

/-- THE SECOND RESULT ARRAY after the run is the specification of the second batch array and the centers. -/
theorem final_second (c : Dev nD) : (dats m 0 c).arrAt 5 cfg0.N = prob (m ((c : Thread nD τ).loc main_arg1)) (m ((c : Thread nD τ).loc main_arg2)) :=
  (dats m 0 c).arrAt_eq_of_cover 5 _ (fun t _ => flushed_second m c t) cover5

/-- The kernel's run: both results at the specification, the arguments unchanged. -/
theorem run : θ_run defs (onTc (τ := τ) (main (F := Ideal))) ⟨m, fun _ => 0, ρ⟩ fun r => ∀ c : Dev nD,
      r.2.mem ((c : Thread nD τ).loc main_v7_0) = prob (m ((c : Thread nD τ).loc main_arg0)) (m ((c : Thread nD τ).loc main_arg2))
      ∧ r.2.mem ((c : Thread nD τ).loc main_v7_1) = prob (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_first m c), (h c).2.1.trans (final_second m c), (h c).2.2⟩)
    (Value.run_blocks m ρ)

end Cert.KernelIdeal.Whole

end
-- ==== Proof.RefValue.lean ====
/-
  The reference, read at an index, is the specification.

  The reference flattens the centers group-major: row `8·k + c` of the 2048 is center `(k, c)`. It forms the same
  expanded squared distance (each norm as zero plus a sum of squares, the inner products by a matrix product with the
  transposed centers), negates it and divides by two before the exponential, views the 2048 columns as 256 groups of 8,
  and reduces each group by a sum from zero and by a maximum from `−∞`. Halving as a quotient is halving as a product,
  zero plus the sum of eight is the eight added in order, and the fold of `max` from `−∞` is the chain of maxima: so
  the reference's result is the specification. Both results are the same chain of operations, of the first and of the
  second batch array.
-/
import proofs.«124140_j85272280695307_2_alg».proof.Proof.Gen.ReferenceIdeal.Read
import proofs.«124140_j85272280695307_2_alg».proof.Proof.RbfSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.RbfSpec

/-- Column `8·k + c`: center `c` of group `k` in the reference's flattening. -/
abbrev col (k : Fin 256) (c : Fin 8) : Fin 2048 := ⟨k.val * 8 + c.val, by have := k.isLt; have := c.isLt; omega⟩

/-- Row `8·k + c` of the reference's flattened centers is center `(k, c)`. -/
theorem flat_apply (C : FVec Ideal S256x8x512 .f32) (k : Fin 256) (c : Fin 8) (d : Fin 512) :
    val_main_v0 (F := Ideal) C (ix2 (col k c) d) = C (ix3 k c d) := by
  rw [val_main_v0_apply]
  refine congrArg C (funext fun a => Fin.ext ?_)
  have hk := k.isLt; have hc := c.isLt; have hd := d.isLt
  match a with
  | ⟨0, _⟩ => show ((k.val * 8 + c.val) * 512 + d.val) / 4096 = k.val; omega
  | ⟨1, _⟩ => show ((k.val * 8 + c.val) * 512 + d.val) / 512 % 8 = c.val; omega
  | ⟨2, _⟩ => show ((k.val * 8 + c.val) * 512 + d.val) % 512 = d.val; omega

/-- The reference's squared norm of row `b`. -/
theorem rowSq_ref (X : FVec Ideal S8192x512 .f32) (b : Fin 8192) :
    val_main_v2 (F := Ideal) X (ix1 b) = rowSq X b := by
  rw [val_main_v2_apply, val_main_cst_apply]
  show Ideal.ofBits .f32 0x00000000#32 + _ = _
  rw [Ideal.ofBits_zero_f32, zero_add]
  unfold rowSq
  refine Finset.sum_congr rfl fun d _ => ?_
  have e : idx_main_v2 (ix1 b) d = ix2 b d := funext fun a => Fin.ext (by match a with | ⟨0, _⟩ => rfl | ⟨1, _⟩ => rfl)
  rw [val_main_v1_apply, e]
  rfl

/-- The reference's squared norm of center `(k, c)`. -/
theorem centerSq_ref (C : FVec Ideal S256x8x512 .f32) (k : Fin 256) (c : Fin 8) :
    val_main_v5 (F := Ideal) C (ix1 (col k c)) = centerSq C k c := by
  rw [val_main_v5_apply, val_main_cst_0_apply]
  show Ideal.ofBits .f32 0x00000000#32 + _ = _
  rw [Ideal.ofBits_zero_f32, zero_add]
  unfold centerSq
  refine Finset.sum_congr rfl fun d _ => ?_
  have e : idx_main_v5 (ix1 (col k c)) d = ix2 (col k c) d := funext fun a => Fin.ext (by match a with | ⟨0, _⟩ => rfl | ⟨1, _⟩ => rfl)
  rw [val_main_v4_apply, e, flat_apply]
  rfl

/-- The reference's inner product of row `b` with center `(k, c)`. -/
theorem inner_ref (X : FVec Ideal S8192x512 .f32) (C : FVec Ideal S256x8x512 .f32) (b : Fin 8192) (k : Fin 256) (c : Fin 8) :
    val_main_v7 (F := Ideal) X C (ix2 b (col k c)) = Cert.RbfSpec.inner X C b k c := by
  rw [val_main_v7_apply]
  unfold Cert.RbfSpec.inner
  refine Finset.sum_congr rfl fun d _ => ?_
  have el : lidx_main_v7 (ix2 b (col k c)) d = ix2 b d := funext fun a => Fin.ext (by match a with | ⟨0, _⟩ => rfl | ⟨1, _⟩ => rfl)
  have er : idx_main_v6 (ridx_main_v7 (ix2 b (col k c)) d) = ix2 (col k c) d := funext fun a => Fin.ext (by match a with | ⟨0, _⟩ => rfl | ⟨1, _⟩ => rfl)
  rw [val_main_v6_apply, el, er, flat_apply]

/-- The reference's Gaussian weight of row `b` and center `(k, c)`. -/
theorem gauss_ref (X : FVec Ideal S8192x512 .f32) (C : FVec Ideal S256x8x512 .f32) (b : Fin 8192) (k : Fin 256) (c : Fin 8) :
    val_main_v18 (F := Ideal) X C (ix2 b (col k c)) = gauss X C b k c := by
  have e1 : idx_main_v3 (idx_main_v10 (ix2 b (col k c))) = ix1 b := funext fun a => Fin.ext (by match a with | ⟨0, _⟩ => rfl)
  have e2 : idx_main_v12 (idx_main_v13 (ix2 b (col k c))) = ix1 (col k c) := funext fun a => Fin.ext (by match a with | ⟨0, _⟩ => rfl)
  rw [val_main_v18_apply, val_main_v17_apply, val_main_v15_apply, val_main_v16_apply, val_main_cst_2_apply, val_main_v14_apply,
    val_main_v11_apply, val_main_v9_apply, val_main_v8_apply, val_main_cst_1_apply, val_main_v10_apply, val_main_v3_apply,
    val_main_v13_apply, val_main_v12_apply, e1, e2, rowSq_ref, centerSq_ref, inner_ref]
  simp only [Ideal.hostUnary_exp_def, Ideal.hostDivf_def, Ideal.hostNegf_def, Ideal.negf_def, Ideal.addf_def, Ideal.subf_def,
    Ideal.mulf_def, Ideal.ofBits_def]
  rw [neg_div_two]
  rfl

/-- The sum of group `k`'s eight weights for row `b`. -/
theorem groupSum_ref (X : FVec Ideal S8192x512 .f32) (C : FVec Ideal S256x8x512 .f32) (b : Fin 8192) (k : Fin 256) :
    val_main_v20 (F := Ideal) X C (ix2 b k) = sum8 fun c => gauss X C b k c := by
  have hg : ∀ c : Fin 8, val_main_v19 (F := Ideal) X C (idx_main_v20 (ix2 b k) c) = gauss X C b k c := fun c => by
    have e : idx_main_v19 (idx_main_v20 (ix2 b k) c) = ix2 b (col k c) := funext fun a => Fin.ext (by
      have hb := b.isLt; have hk := k.isLt; have hc := c.isLt
      match a with
      | ⟨0, _⟩ => show ((b.val * 256 + k.val) * 8 + c.val) / 2048 = b.val; omega
      | ⟨1, _⟩ => show ((b.val * 256 + k.val) * 8 + c.val) % 2048 = k.val * 8 + c.val; omega)
    rw [val_main_v19_apply, e, gauss_ref]
  rw [val_main_v20_apply, val_main_cst_3_apply]
  simp only [hg]
  exact zero_add_sum8 _

/-- The maximum of group `k`'s eight weights for row `b`. -/
theorem groupMax_ref (X : FVec Ideal S8192x512 .f32) (C : FVec Ideal S256x8x512 .f32) (b : Fin 8192) (k : Fin 256) :
    val_main_v21 (F := Ideal) X C (ix2 b k) = max8 fun c => gauss X C b k c := by
  unfold val_main_v21
  rw [Host.reduce_eq_fold_single FloatOps.maximumf _ _ reducesTo_S8192x256x8_S8192x256_d2 (by decide) h_S_]
  have hf : (val_main_v19 (F := Ideal) X C ∘ (by decide : S8192x256x8.Reduces [2] S8192x256).lift (ix2 b k)) = fun c : Fin 8 => gauss X C b k c :=
    funext fun (c : Fin 8) => by
      have e : idx_main_v19 ((by decide : S8192x256x8.Reduces [2] S8192x256).lift (ix2 b k) c) = ix2 b (col k c) := funext fun a => Fin.ext (by
        have hb := b.isLt; have hk := k.isLt; have hc := c.isLt
        match a with
        | ⟨0, _⟩ => show ((b.val * 256 + k.val) * 8 + c.val) / 2048 = b.val; omega
        | ⟨1, _⟩ => show ((b.val * 256 + k.val) * 8 + c.val) % 2048 = k.val * 8 + c.val; omega)
      show val_main_v19 (F := Ideal) X C _ = _
      rw [val_main_v19_apply, e, gauss_ref]
  rw [hf]
  exact fold_max8 _

/-- THE REFERENCE'S FIRST RESULT is the specification of its first batch array and the centers. -/
theorem result_eq (X : FVec Ideal S8192x512 .f32) (C : FVec Ideal S256x8x512 .f32) :
    val_main_v27 (F := Ideal) X C = prob X C := by
  funext i
  obtain ⟨b, k, rfl⟩ : ∃ (b : Fin 8192) (k : Fin 256), i = ix2 b k := ⟨i 0, i 1, eq_ix2 i⟩
  rw [val_main_v27_apply, val_main_v26_apply, val_main_v23_apply, val_main_v25_apply, val_main_v22_apply, val_main_v24_apply,
    val_main_cst_5_apply, val_main_cst_6_apply, groupSum_ref, groupMax_ref]
  rfl

/-- The second result is the same chain of operations, of the second batch array. -/
theorem second_eq (X : FVec Ideal S8192x512 .f32) (C : FVec Ideal S256x8x512 .f32) :
    val_main_v55 (F := Ideal) X C = val_main_v27 (F := Ideal) X C := rfl

end Cert.ReferenceIdeal.RefValue

end
-- ==== Proof.lean ====
/-
  The five claims.

  The three frames are the generated ones (the reference's is its run with the results dropped). The idealization
  rewrote nothing, so `preserves` is trivial. For `algebraic`: run from memories that agree on the three arguments,
  the kernel ends with each result array at the specification `RbfSpec.prob` of a batch array and the centers (the
  eight row blocks, each the block of that one function), and the reference ends at the same function of the same
  arguments (its group-major flattening, its quotient by two, its reductions from zero and from `−∞` read at an
  index). No step uses finiteness of the inputs.
-/
import proofs.«124140_j85272280695307_2_alg».proof.Defs
import proofs.«124140_j85272280695307_2_alg».proof.Proof.Gen.Kernel
import proofs.«124140_j85272280695307_2_alg».proof.Proof.Gen.Kernel.Skeleton
import proofs.«124140_j85272280695307_2_alg».proof.Proof.Gen.Kernel.Launch
import proofs.«124140_j85272280695307_2_alg».proof.Proof.Gen.Kernel.Points
import proofs.«124140_j85272280695307_2_alg».proof.Proof.Gen.Kernel.Frame
import proofs.«124140_j85272280695307_2_alg».proof.Proof.Gen.KernelIdeal
import proofs.«124140_j85272280695307_2_alg».proof.Proof.Gen.KernelIdeal.Skeleton
import proofs.«124140_j85272280695307_2_alg».proof.Proof.Gen.KernelIdeal.Launch
import proofs.«124140_j85272280695307_2_alg».proof.Proof.Gen.KernelIdeal.Points
import proofs.«124140_j85272280695307_2_alg».proof.Proof.Gen.KernelIdeal.Frame
import proofs.«124140_j85272280695307_2_alg».proof.Proof.Gen.ReferenceIdeal
import proofs.«124140_j85272280695307_2_alg».proof.Proof.Gen.KernelIdeal.Value
import proofs.«124140_j85272280695307_2_alg».proof.Proof.Gen.ReferenceIdeal.Run
import proofs.«124140_j85272280695307_2_alg».proof.Proof.Gen.ReferenceIdeal.Read
import proofs.«124140_j85272280695307_2_alg».proof.Proof.Gen.Pre_finite_inputs
import proofs.«124140_j85272280695307_2_alg».proof.Proof.KernelValue
import proofs.«124140_j85272280695307_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with each result at the specification of the agreeing arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, Cert.ReferenceIdeal.RefValue.result_eq, (hagree c).1, (hagree c).2.2]
  · rw [Cert.ReferenceIdeal.Read.val_main_v55_eq, Cert.ReferenceIdeal.RefValue.second_eq, Cert.ReferenceIdeal.RefValue.result_eq,
      (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
